-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256x1 : Shape := ⟨4, ![32, 2048, 256, 1]⟩
abbrev S256x256 : Shape := ⟨2, ![256, 256]⟩
abbrev S256x64 : Shape := ⟨2, ![256, 64]⟩
abbrev S_ : Shape := ⟨0, ![]⟩

class Facts : Prop where
  bcast_S_S32x2048x256x1 : S_.BroadcastsInDim S32x2048x256x1 (![] : Fin 0 → Fin S32x2048x256x1.rank)
  reducesTo_S32x2048x256x1_S_d0_1_2_3 : S32x2048x256x1.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S32x2048x256x1 .f32) (main_arg1 : FVec F S256x256 .f32) (main_arg2 : FVec F S256x64 .f32) : IVec S_ 1 :=
  let main_v0 : FVec F S32x2048x256x1 .f32 := Host.absf main_arg0
  let main_cst : FVec F S_ .f32 := constant S_ .f32 0x7F800000#32
  let main_v1 : FVec F S32x2048x256x1 .f32 := broadcastInDim S32x2048x256x1 ![] bcast_S_S32x2048x256x1 main_cst
  let main_v2 : IVec S32x2048x256x1 1 := cmpf .olt main_v0 main_v1
  let main_c : IVec S_ 1 := constantI S_ 1 1#1
  let main_v3 : IVec S_ 1 := (fun x v => Host.reduce IntOp.andi x v reducesTo_S32x2048x256x1_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S32x2048x256x1 : Shape := ⟨4, ![32, 2048, 256, 1]⟩
abbrev S256x256 : Shape := ⟨2, ![256, 256]⟩
abbrev S256x64 : Shape := ⟨2, ![256, 64]⟩
abbrev S32x2048x256 : Shape := ⟨3, ![32, 2048, 256]⟩
abbrev S65536x256 : Shape := ⟨2, ![65536, 256]⟩
abbrev S65536x64 : Shape := ⟨2, ![65536, 64]⟩
abbrev S8192x256 : Shape := ⟨2, ![8192, 256]⟩
abbrev S8192x64 : Shape := ⟨2, ![8192, 64]⟩
abbrev S32x2048x64x1 : Shape := ⟨4, ![32, 2048, 64, 1]⟩

abbrev nBuf : Space → Nat
  | .hbm => 9
  | .vmem => 5
  | .smem => 0
  | _ => 0

abbrev bufTy : (tb : Table) → Fin (tcTables nBuf tb) → BufTy
  | .hbm, ⟨0, _⟩ => ⟨S32x2048x256x1, .f32⟩
  | .hbm, ⟨1, _⟩ => ⟨S256x256, .f32⟩
  | .hbm, ⟨2, _⟩ => ⟨S256x64, .f32⟩
  | .hbm, ⟨3, _⟩ => ⟨S32x2048x256, .f32⟩
  | .hbm, ⟨4, _⟩ => ⟨S65536x256, .f32⟩
  | .hbm, ⟨5, _⟩ => ⟨S256x256, .f32⟩
  | .hbm, ⟨6, _⟩ => ⟨S256x64, .f32⟩
  | .hbm, ⟨7, _⟩ => ⟨S65536x64, .f32⟩
  | .hbm, ⟨8, _⟩ => ⟨S32x2048x64x1, .f32⟩
  | .local _ .vmem, ⟨0, _⟩ => ⟨S8192x256, .f32⟩
  | .local _ .vmem, ⟨1, _⟩ => ⟨S8192x256, .f32⟩
  | .local _ .vmem, ⟨2, _⟩ => ⟨S256x64, .f32⟩
  | .local _ .vmem, ⟨3, _⟩ => ⟨S8192x64, .f32⟩
  | .local _ .vmem, ⟨4, _⟩ => ⟨S8192x64, .f32⟩
  | _, _ => ⟨S32x2048x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x2048x256x1_S32x2048x256 : S32x2048x256x1.ShapeCasts S32x2048x256
  shapeCasts_S32x2048x256_S65536x256 : S32x2048x256.ShapeCasts S65536x256
  transposes_S256x256_S256x256_1_0 : S256x256.Transposes [1, 0] S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  shapeCasts_S65536x64_S32x2048x64x1 : S65536x64.ShapeCasts S32x2048x64x1
  dot_S256x256_S256x64_S256x64_1_0_0_1_n_n_wf : DotDims.WF S256x256 S256x64 S256x64 [1] [0] [0] [1] [] []
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .f32 = 32 ∨ (Rect.block (s := S65536x64) S8192x64.size (cc0_transform_2 i) (hinb0_2 i)).WholeWords (EltTy.packing .f32)

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_v1) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x256x1 : Shape := ⟨4, ![32, 2048, 256, 1]⟩
abbrev S256x256 : Shape := ⟨2, ![256, 256]⟩
abbrev S256x64 : Shape := ⟨2, ![256, 64]⟩
abbrev S32x2048x256 : Shape := ⟨3, ![32, 2048, 256]⟩
abbrev S32x2048x64 : Shape := ⟨3, ![32, 2048, 64]⟩
abbrev S_ : Shape := ⟨0, ![]⟩
abbrev S32x2048x64x1 : Shape := ⟨4, ![32, 2048, 64, 1]⟩

abbrev nBuf : Space → Nat
  | .hbm => 10
  | .vmem => 0
  | .smem => 0
  | _ => 0

abbrev bufTy : (tb : Table) → Fin (tcTables nBuf tb) → BufTy
  | .hbm, ⟨0, _⟩ => ⟨S32x2048x256x1, .f32⟩
  | .hbm, ⟨1, _⟩ => ⟨S256x256, .f32⟩
  | .hbm, ⟨2, _⟩ => ⟨S256x64, .f32⟩
  | .hbm, ⟨3, _⟩ => ⟨S32x2048x256, .f32⟩
  | .hbm, ⟨4, _⟩ => ⟨S32x2048x256, .f32⟩
  | .hbm, ⟨5, _⟩ => ⟨S32x2048x64, .f32⟩
  | .hbm, ⟨6, _⟩ => ⟨S_, .f32⟩
  | .hbm, ⟨7, _⟩ => ⟨S32x2048x64, .f32⟩
  | .hbm, ⟨8, _⟩ => ⟨S32x2048x64, .f32⟩
  | .hbm, ⟨9, _⟩ => ⟨S32x2048x64x1, .f32⟩
  | _, _ => ⟨S32x2048x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S32x2048x256x1_S32x2048x256 : S32x2048x256x1.ShapeCasts S32x2048x256
  bcast_S_S32x2048x64 : S_.BroadcastsInDim S32x2048x64 (![] : Fin 0 → Fin S32x2048x64.rank)
  bcast_S32x2048x64_S32x2048x64x1_0_1_2 : S32x2048x64.BroadcastsInDim S32x2048x64x1 (![0, 1, 2] : Fin 3 → Fin S32x2048x64x1.rank)
  dot_S32x2048x256_S256x256_S32x2048x256_2_1_01_0_n_n_wf : DotDims.WF S32x2048x256 S256x256 S32x2048x256 [2] [1] [0, 1] [0] [] []
  dot_S32x2048x256_S256x64_S32x2048x64_2_0_01_1_n_n_wf : DotDims.WF S32x2048x256 S256x64 S32x2048x64 [2] [0] [0, 1] [1] [] []

variable [Facts₀]

def dot_S32x2048x256_S256x256_S32x2048x256_2_1_01_0_n_n : DotDims S32x2048x256 S256x256 S32x2048x256 where
  lhsContracting := [2]
  rhsContracting := [1]
  lhsNonContracting := [0, 1]
  rhsNonContracting := [0]
  lhsBatch := []
  rhsBatch := []
  wf := dot_S32x2048x256_S256x256_S32x2048x256_2_1_01_0_n_n_wf
def dot_S32x2048x256_S256x64_S32x2048x64_2_0_01_1_n_n : DotDims S32x2048x256 S256x64 S32x2048x64 where
  lhsContracting := [2]
  rhsContracting := [0]
  lhsNonContracting := [0, 1]
  rhsNonContracting := [1]
  lhsBatch := []
  rhsBatch := []
  wf := dot_S32x2048x256_S256x64_S32x2048x64_2_0_01_1_n_n_wf

class Facts : Prop extends Facts₀ where

variable [Facts]
-- ==== Proof.Finite.lean ====
/-
  What the precondition says of the three argument arrays: each entry is a real number.

  The precondition is the conjunction of three tests "every |entry| is below +∞", each a reduction by `and` of a
  pointwise comparison against the pattern of +∞. On the extended reals `|v| = max v (-v)`, which is +∞ at both
  infinities, so an entry passing the test is neither: it is the coercion of a real.
-/
import proofs.«112091_j8976481649176_2_alg».proof.Pre_finite_inputs
import Idealize.ShloMosaic.PureOps.Ideal
import Idealize.ShloMosaic.Lib.ReduceAll
import Idealize.ShloMosaic.Lib.ValueIdx

noncomputable section

namespace Cert.GraphLayer

open Idealize.ShloMosaic Cert.Pre_finite_inputs

/-- An extended real whose absolute value is strictly below the f32 pattern of +∞ is a real number. -/
theorem real_of_abs_lt_inf (v : EReal)
    (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

instance : Subsingleton S_.Idx := ⟨fun a b => funext fun d => d.elim0⟩

/-- Under the precondition every entry of the signal, of the adjacency matrix and of the weight matrix is real. -/
theorem real_entries [Cert.Pre_finite_inputs.Facts] (x : FVec Ideal S32x2048x256x1 .f32) (a : FVec Ideal S256x256 .f32)
    (w : FVec Ideal S256x64 .f32) (h : Cert.Pre_finite_inputs.fn (F := Ideal) x a w = fun _ => 1#1) :
    (∀ i, ∃ r : ℝ, x i = r) ∧ (∀ i, ∃ r : ℝ, a i = r) ∧ (∀ i, ∃ r : ℝ, w i = r) := by
  have h0 := congrFun h ValueIdx.ix0
  dsimp only [Cert.Pre_finite_inputs.fn] at h0
  obtain ⟨hxa, hw⟩ := IntOp.andi_eq_one.1 h0
  obtain ⟨hx, ha⟩ := IntOp.andi_eq_one.1 hxa
  exact ⟨fun i => real_of_abs_lt_inf _ (Host.reduce_andi_all _ _ _ _ _ hx i),
    fun i => real_of_abs_lt_inf _ (Host.reduce_andi_all _ _ _ _ _ ha i),
    fun i => real_of_abs_lt_inf _ (Host.reduce_andi_all _ _ _ _ _ hw i)⟩

end Cert.GraphLayer

end
-- ==== Proof.SumExchange.lean ====
/-
  Two finite sums of products of REAL numbers, read in the extended reals, may be exchanged and regrouped:

      ∑ n, x n * (∑ c, a c n * w c)  =  ∑ c, (∑ n, x n * a c n) * w c.

  On the extended reals this is false in general (a product with an infinity does not distribute over a sum of
  opposite signs), so the hypotheses say that every entry is the coercion of a real; then both sides are the
  coercion of one real double sum, and the identity is the reals' distributivity and the exchange of two finite sums.
-/
import Idealize.ShloMosaic.PureOps.Ideal

open scoped BigOperators

namespace Cert.GraphLayer

/-- The coercion of the reals into the extended reals commutes with a finite sum. -/
theorem coe_finsum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Aggregating over `n` first and then transforming over `c`, or folding the two matrices over `c` first and then
    contracting with `x` over `n`, is the same extended real when every entry is a real number. -/
theorem sum_mul_sum_exchange {N C : Type*} [Fintype N] [Fintype C] (x : N → EReal) (a : C → N → EReal) (w : C → EReal)
    (hx : ∀ n, ∃ r : ℝ, x n = r) (ha : ∀ c n, ∃ r : ℝ, a c n = r) (hw : ∀ c, ∃ r : ℝ, w c = r) :
    ∑ n, x n * ∑ c, a c n * w c = ∑ c, (∑ n, x n * a c n) * w c := by
  choose x' hx using hx
  choose a' ha using ha
  choose w' hw using hw
  simp only [hx, ha, hw, ← EReal.coe_mul, ← coe_finsum]
  congr 1
  simp only [Finset.mul_sum, Finset.sum_mul]
  rw [Finset.sum_comm]
  exact Finset.sum_congr rfl fun c _ => Finset.sum_congr rfl fun n _ => by ring

end Cert.GraphLayer
-- ==== Proof.Layer.lean ====
/-
  The graph-convolution layer as ONE function of the three argument arrays, entry by entry.

  For a signal x[b, t, n, 0], an adjacency matrix a[c, n] and a weight matrix w[c, d] the layer's output is

      out[b, t, d, 0] = max (∑ c, (∑ n, x[b, t, n, 0] * a[c, n]) * w[c, d]) 0        (`layerAt`: aggregate, then transform)

  and the same number is reached by folding the two matrices first,

      max (∑ n, x[b, t, n, 0] * (∑ c, a[c, n] * w[c, d])) 0                            (`foldedAt`: fold, then contract),

  whenever every entry is a real number (`foldedAt_eq_layerAt`, by the exchange of the two finite sums).
-/
import proofs.«112091_j8976481649176_2_alg».proof.Proof.SumExchange
import Idealize.ShloMosaic.Lib.ValueIdx

noncomputable section

open scoped BigOperators

namespace Cert.GraphLayer

open Idealize.ShloMosaic Idealize.ShloMosaic.ValueIdx

/-- Aggregate over the neighbours `n` with the adjacency row `c`, transform with the weights over `c`, clamp at zero. -/
def layerAt (x : (⟨4, ![32, 2048, 256, 1]⟩ : Shape).Idx → EReal) (a : (⟨2, ![256, 256]⟩ : Shape).Idx → EReal)
    (w : (⟨2, ![256, 64]⟩ : Shape).Idx → EReal) (b : Fin 32) (t : Fin 2048) (d : Fin 64) : EReal :=
  max (∑ c : Fin 256, (∑ n : Fin 256, x (ix4 b t n (0 : Fin 1)) * a (ix2 c n)) * w (ix2 c d)) 0

/-- The layer's output array: `layerAt` at the entry's first three coordinates (the fourth axis has one entry). -/
def layer (x : (⟨4, ![32, 2048, 256, 1]⟩ : Shape).Idx → EReal) (a : (⟨2, ![256, 256]⟩ : Shape).Idx → EReal)
    (w : (⟨2, ![256, 64]⟩ : Shape).Idx → EReal) : (⟨4, ![32, 2048, 64, 1]⟩ : Shape).Idx → EReal :=
  fun i => layerAt x a w (i 0) (i 1) (i 2)

/-- Fold the adjacency and weight matrices over `c` first, then contract the signal with the folded matrix over `n`. -/
def foldedAt (x : (⟨4, ![32, 2048, 256, 1]⟩ : Shape).Idx → EReal) (a : (⟨2, ![256, 256]⟩ : Shape).Idx → EReal)
    (w : (⟨2, ![256, 64]⟩ : Shape).Idx → EReal) (b : Fin 32) (t : Fin 2048) (d : Fin 64) : EReal :=
  max (∑ n : Fin 256, x (ix4 b t n (0 : Fin 1)) * ∑ c : Fin 256, a (ix2 c n) * w (ix2 c d)) 0

/-- On real entries the two orders of summation agree. -/
theorem foldedAt_eq_layerAt (x : (⟨4, ![32, 2048, 256, 1]⟩ : Shape).Idx → EReal) (a : (⟨2, ![256, 256]⟩ : Shape).Idx → EReal)
    (w : (⟨2, ![256, 64]⟩ : Shape).Idx → EReal) (hx : ∀ i, ∃ r : ℝ, x i = r) (ha : ∀ i, ∃ r : ℝ, a i = r)
    (hw : ∀ i, ∃ r : ℝ, w i = r) (b : Fin 32) (t : Fin 2048) (d : Fin 64) :
    foldedAt x a w b t d = layerAt x a w b t d := by
  unfold foldedAt layerAt
  rw [sum_mul_sum_exchange (fun n : Fin 256 => x (ix4 b t n (0 : Fin 1))) (fun (c n : Fin 256) => a (ix2 c n))
    (fun c : Fin 256 => w (ix2 c d)) (fun n => hx _) (fun c n => ha _) (fun c => hw _)]

end Cert.GraphLayer

end
-- ==== Proof.Reference.lean ====
/-
  The reference program computes the layer: its two contractions are "aggregate over the neighbours n with row c of
  the adjacency matrix" and "transform over c with the weights", then the maximum with zero, then a unit axis is
  appended. Read entry by entry through the generated stage lemmas, the result at (b, t, d, 0) is `layerAt … b t d`.
-/
import proofs.«112091_j8976481649176_2_alg».proof.Proof.Gen.ReferenceIdeal.Read
import proofs.«112091_j8976481649176_2_alg».proof.Proof.Layer
import Idealize.ShloMosaic.PureOps.Ideal.Laws

noncomputable section

namespace Cert.GraphLayer

open Idealize.ShloMosaic Idealize.ShloMosaic.ValueIdx Cert.ReferenceIdeal Cert.ReferenceIdeal.Gen Cert.ReferenceIdeal.Read

/-- The signal entry the first contraction reads for output (b, t, d, 0), weight row c, neighbour n. -/
theorem ref_x_idx (b : Fin 32) (t : Fin 2048) (d : Fin 64) (z : Fin 1) (c n : Fin 256) :
    idx_main_v0 (lidx_main_v1 (lidx_main_v2 (idx_main_v4 (ix4 b t d z)) c) n) = ix4 b t n (0 : Fin 1) :=
  funext fun a => Fin.ext (by
    have hb : b.val < 32 := b.isLt
    have ht : t.val < 2048 := t.isLt
    have hn : n.val < 256 := n.isLt
    match a with
    | ⟨0, _⟩ => show ((b.val * 2048 + t.val) * 256 + n.val) / 524288 = b.val; omega
    | ⟨1, _⟩ => show ((b.val * 2048 + t.val) * 256 + n.val) / 256 % 2048 = t.val; omega
    | ⟨2, _⟩ => show ((b.val * 2048 + t.val) * 256 + n.val) / 1 % 256 = n.val; omega
    | ⟨3, _⟩ => rfl)

/-- The adjacency entry it reads: row c, column n. -/
theorem ref_a_idx (b : Fin 32) (t : Fin 2048) (d : Fin 64) (z : Fin 1) (c n : Fin 256) :
    ridx_main_v1 (lidx_main_v2 (idx_main_v4 (ix4 b t d z)) c) n = ix2 c n :=
  funext fun a => Fin.ext (by match a with | ⟨0, _⟩ => rfl | ⟨1, _⟩ => rfl)

/-- The weight entry the second contraction reads: row c, column d. -/
theorem ref_w_idx (b : Fin 32) (t : Fin 2048) (d : Fin 64) (z : Fin 1) (c : Fin 256) :
    ridx_main_v2 (idx_main_v4 (ix4 b t d z)) c = ix2 c d :=
  funext fun a => Fin.ext (by match a with | ⟨0, _⟩ => rfl | ⟨1, _⟩ => rfl)

/-- THE REFERENCE IS THE LAYER: its last stage, entry by entry. -/
theorem ref_eq_layer (x : (⟨S32x2048x256x1, .f32⟩ : BufTy).Contents (Elt Ideal)) (a : (⟨S256x256, .f32⟩ : BufTy).Contents (Elt Ideal))
    (w : (⟨S256x64, .f32⟩ : BufTy).Contents (Elt Ideal)) :
    val_main_v4 (F := Ideal) x a w = layer x a w := by
  funext i
  obtain ⟨b, t, d, z, rfl⟩ : ∃ (b : Fin 32) (t : Fin 2048) (d : Fin 64) (z : Fin 1), i = ix4 b t d z :=
    ⟨i 0, i 1, i 2, i 3, eq_ix4 i⟩
  rw [val_main_v4_apply, val_main_v3_apply, val_main_v2_apply, val_main_call0_v0_apply, val_main_call0_cst_apply]
  simp only [val_main_v1_apply, val_main_v0_apply, ref_x_idx, ref_a_idx, ref_w_idx]
  show max _ (Ideal.ofBits .f32 0x00000000#32) = _
  rw [Ideal.ofBits_zero_f32]
  rfl

end Cert.GraphLayer

end
-- ==== Proof.Block.lean ====
/-
  What the kernel body stores for one block of 8192 rows, read at an entry (p, q): the maximum with zero of the
  inner product of row p of the loaded row block with column q of the loaded 256 × 64 matrix,

      max (∑ k, X (p, k) * M (k, q)) 0.

  At the ideal values the two narrowing format changes are the identity, the matrix product into a zero accumulator
  is the plain sum over the contracted axis, and the splat 0.0 is the extended real 0.
-/
import proofs.«112091_j8976481649176_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.GraphLayer

open Idealize.ShloMosaic Idealize.ShloMosaic.ValueIdx Cert.KernelIdeal Cert.KernelIdeal.Gen

/-- The left operand's index at output (p, q) and contraction coordinate k keeps the row … -/
theorem mm_lhs_row (i : S8192x64.Idx) (u : dot_S8192x256_S256x64_S8192x64_1_0_0_1_n_n.contr.Idx) :
    (dot_S8192x256_S256x64_S8192x64_1_0_0_1_n_n.lhsIdx i u 0).val = (i 0).val := by
  unfold DotDims.lhsIdx
  rw [dif_neg (show ¬(0 : Fin S8192x256.rank) ∈ dot_S8192x256_S256x64_S8192x64_1_0_0_1_n_n.lhsBatch by decide),
    dif_pos (show (0 : Fin S8192x256.rank) ∈ dot_S8192x256_S256x64_S8192x64_1_0_0_1_n_n.lhsNonContracting by decide)]
  rfl
/-- … and takes the contraction coordinate as its column; -/
theorem mm_lhs_col (i : S8192x64.Idx) (u : dot_S8192x256_S256x64_S8192x64_1_0_0_1_n_n.contr.Idx) :
    (dot_S8192x256_S256x64_S8192x64_1_0_0_1_n_n.lhsIdx i u 1).val = (u ⟨0, by decide⟩).val :=
  dot_S8192x256_S256x64_S8192x64_1_0_0_1_n_n.lhsIdx_val_of_single rfl i u
/-- the right operand's takes the contraction coordinate as its row … -/
theorem mm_rhs_row (i : S8192x64.Idx) (u : dot_S8192x256_S256x64_S8192x64_1_0_0_1_n_n.contr.Idx) :
    (dot_S8192x256_S256x64_S8192x64_1_0_0_1_n_n.rhsIdx i u 0).val = (u ⟨0, by decide⟩).val :=
  dot_S8192x256_S256x64_S8192x64_1_0_0_1_n_n.rhsIdx_val_of_single rfl i u
/-- … and keeps the column. -/
theorem mm_rhs_col (i : S8192x64.Idx) (u : dot_S8192x256_S256x64_S8192x64_1_0_0_1_n_n.contr.Idx) :
    (dot_S8192x256_S256x64_S8192x64_1_0_0_1_n_n.rhsIdx i u 1).val = (i 1).val := by
  unfold DotDims.rhsIdx
  rw [dif_neg (show ¬(1 : Fin S256x64.rank) ∈ dot_S8192x256_S256x64_S8192x64_1_0_0_1_n_n.rhsBatch by decide),
    dif_pos (show (1 : Fin S256x64.rank) ∈ dot_S8192x256_S256x64_S8192x64_1_0_0_1_n_n.rhsNonContracting by decide)]
  rfl

/-- The block's matrix product into the zero accumulator, at (p, q): the inner product of row p and column q. -/
theorem block_matmul_apply (l : FVec Ideal S8192x256 .bf16) (r : FVec Ideal S256x64 .bf16) (p : Fin 8192) (q : Fin 64) :
    matmul dot_S8192x256_S256x64_S8192x64_1_0_0_1_n_n none l r (constant S8192x64 .f32 0x00000000#32) (ix2 p q)
      = ∑ k : Fin 256, l (ix2 p k) * r (ix2 k q) := by
  simp only [matmul]
  rw [Ideal.matmul_constant_zero_apply,
    ← Equiv.sum_comp (contrEquiv1 dot_S8192x256_S256x64_S8192x64_1_0_0_1_n_n 256 rfl rfl).symm]
  refine Finset.sum_congr rfl fun k _ => ?_
  have hk := contrEquiv1_symm_val dot_S8192x256_S256x64_S8192x64_1_0_0_1_n_n 256 rfl rfl k
  have el : dot_S8192x256_S256x64_S8192x64_1_0_0_1_n_n.lhsIdx (ix2 p q)
      ((contrEquiv1 dot_S8192x256_S256x64_S8192x64_1_0_0_1_n_n 256 rfl rfl).symm k) = ix2 p k :=
    funext fun a => Fin.ext (by
      match a with
      | ⟨0, _⟩ => exact mm_lhs_row _ _
      | ⟨1, _⟩ => exact (mm_lhs_col _ _).trans hk)
  have er : dot_S8192x256_S256x64_S8192x64_1_0_0_1_n_n.rhsIdx (ix2 p q)
      ((contrEquiv1 dot_S8192x256_S256x64_S8192x64_1_0_0_1_n_n 256 rfl rfl).symm k) = ix2 k q :=
    funext fun a => Fin.ext (by
      match a with
      | ⟨0, _⟩ => exact (mm_rhs_row _ _).trans hk
      | ⟨1, _⟩ => exact mm_rhs_col _ _)
  rw [el, er]

/-- THE BODY'S STORE at (p, q): `max (∑ k, X (p, k) * M (k, q)) 0` of the two loaded blocks. -/
theorem pay_apply (x0 : Vec Ideal S8192x256 .f32) (x1 : Vec Ideal S256x64 .f32) (p : Fin 8192) (q : Fin 64) :
    k0_pay1 (F := Ideal) x0 x1 (ix2 p q) = max (∑ k : Fin 256, x0 (ix2 p k) * x1 (ix2 k q)) 0 := by
  unfold k0_pay1
  rw [shapeCast_self, shapeCast_self, maximumf_apply, block_matmul_apply]
  show max (∑ k : Fin 256, x0 (ix2 p k) * x1 (ix2 k q)) (Ideal.ofBits .f32 0x00000000#32) = _
  rw [Ideal.ofBits_zero_f32]

end Cert.GraphLayer

end
-- ==== Proof.Rows.lean ====
/-
  From the eight row blocks to the whole array the region writes.

  The region's output is a 65536 × 64 array written in eight blocks of 8192 rows; point t of the grid reads rows
  8192·t … 8192·t + 8191 of the 65536 × 256 matrix X (all 256 columns) and the whole 256 × 64 matrix M, and writes rows
  8192·t … of the output. Each written entry is `max (∑ k, X (r, k) * M (k, q)) 0` at its own row r and column q, so every
  block is the restriction of ONE function of the two arrays (`rowsOut`), the blocks cover the array (row r lies in the
  block of point r / 8192), and the array after the run is `rowsOut X M`.
-/
import proofs.«112091_j8976481649176_2_alg».proof.Proof.Gen.KernelIdeal.Frame
import proofs.«112091_j8976481649176_2_alg».proof.Proof.Block
import Idealize.ShloMosaic.Lib.Pipeline.Value

set_option maxRecDepth 16384

noncomputable section

open scoped BigOperators

namespace Cert.GraphLayer

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Every row of X against every column of M, clamped at zero. -/
def rowsOut (X : S65536x256.Idx → EReal) (M : S256x64.Idx → EReal) : S65536x64.Idx → EReal :=
  fun i => max (∑ k : Fin 256, X (ix2 (i 0) k) * M (ix2 k (i 1))) 0

theorem offsets_zero : (![0, 0] : Fin 2 → Nat) = fun _ => 0 := funext fun a => by fin_cases a <;> rfl

/-- The body's store at a block entry y is `rowsOut X M` at the array entry i, when the loaded row block holds X's row
    of i and the loaded matrix holds M's column of i. -/
theorem store_eq_rowsOut (X : S65536x256.Idx → EReal) (M : S256x64.Idx → EReal) (x0 : Vec Ideal S8192x256 .f32)
    (x1 : Vec Ideal S256x64 .f32) (y : S8192x64.Idx) (i : S65536x64.Idx)
    (h0 : ∀ k : Fin 256, x0 (ix2 (y 0) k) = X (ix2 (i 0) k)) (h1 : ∀ k : Fin 256, x1 (ix2 k (y 1)) = M (ix2 k (i 1))) :
    k0_pay1 (F := Ideal) x0 x1 y = rowsOut X M i := by
  obtain ⟨p, q, rfl⟩ : ∃ (p : Fin 8192) (q : Fin 64), y = ix2 p q := ⟨y 0, y 1, eq_ix2 y⟩
  rw [pay_apply]
  unfold rowsOut
  exact congrArg (max · 0) (Finset.sum_congr rfl fun k _ => by rw [← h0 k, ← h1 k])

/-- The printed index maps over the grid: the row block of X and of the output is the point's number, every other
    block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `rowsOut` of the two arrays as the region finds them. -/
theorem flushed_eq (c : Dev nD) (t : Fin cfg0.N) :
    (dats m 0 c).flushed 2 t
      = ((cfg0.win 2).blk t).view.read (Elt Ideal) (rowsOut (V m c main_v1) (V m c main_v3)) := by
  show (cfg0.win 2).cut (grid0.coords t) ((dats m 0 c).after 2 t) = _
  rw [after0_2]
  unfold out0_2
  rw [View.canon_unit_zero offsets_zero]
  simp only [View.ld_unit_zero (S := S8192x256) offsets_zero, View.ld_unit_zero (S := S256x64) offsets_zero]
  obtain ⟨e00, e01, e10, e11, e20, e21⟩ := block_indices t
  funext j
  rw [View.read_apply]
  refine store_eq_rowsOut _ _ _ _ j _ (fun k => ?_) (fun k => ?_)
  · unfold iblk
    rw [View.read_apply]
    show V m c main_v1 _ = V m c main_v1 _
    congr 1
    funext a
    apply Fin.ext
    match a with
    | ⟨0, _⟩ =>
      show win0_0.index t (0 : Fin 2) * 8192 + 1 * (j 0).val = win0_2.index t (0 : Fin 2) * 8192 + 1 * (j 0).val
      omega
    | ⟨1, _⟩ =>
      show win0_0.index t (1 : Fin 2) * 256 + 1 * k.val = k.val
      omega
  · unfold iblk
    rw [View.read_apply]
    show V m c main_v3 _ = V m c main_v3 _
    congr 1
    funext a
    apply Fin.ext
    match a with
    | ⟨0, _⟩ =>
      show win0_1.index t (0 : Fin 2) * 256 + 1 * k.val = k.val
      omega
    | ⟨1, _⟩ =>
      show win0_1.index t (1 : Fin 2) * 64 + 1 * (j 1).val = win0_2.index t (1 : Fin 2) * 64 + 1 * (j 1).val
      omega

/-- An entry of the output array is in point t's block iff each coordinate is in the block's range on its axis. -/
theorem mem_block (t : Fin cfg0.N) (i : S65536x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v4).slice (win0_2.rect t)).set ↔ _
  rw [View.set_slice_whole, Rect.mem_set_unit]
  exact Iff.rfl

/-- Row r of the output lies in the block of point r / 8192, which is written back. -/
theorem rows_covered (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  have hN : cfg0.N = 8 := N_0
  obtain ⟨t, ht⟩ : ∃ t : Fin cfg0.N, t.val = (i 0).val / 8192 := ⟨⟨(i 0).val / 8192, by omega⟩, rfl⟩
  obtain ⟨-, -, -, -, e20, e21⟩ := block_indices t
  refine ⟨t, flush0_2 t, ?_⟩
  rw [mem_block]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 64 ≤ (i 1).val ∧ (i 1).val < win0_2.index t (1 : Fin 2) * 64 + 64
    omega

/-- THE ARRAY AFTER THE REGION: `rowsOut` of the two arrays as the region finds them. -/
theorem region_result (c : Dev nD) :
    (dats m 0 c).arrAt 2 cfg0.N = rowsOut (V m c main_v1) (V m c main_v3) :=
  (dats m 0 c).arrAt_eq_of_cover 2 (rowsOut (V m c main_v1) (V m c main_v3)) (fun t _ => flushed_eq m c t) rows_covered

end Cert.GraphLayer

end
-- ==== Proof.Prefix.lean ====
/-
  The two arrays the region is launched on, as functions of the arguments, read at an entry.

  Before the region the host flattens the signal x[b, t, n, 0] to a 65536 × 256 matrix — row 2048·b + t, column n — and
  folds the adjacency and weight matrices: the transpose of a, times w, whose entry (n, d) is `∑ c, a (c, n) * w (c, d)`.
-/
import proofs.«112091_j8976481649176_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.GraphLayer

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The region finds, as its first operand, the signal flattened twice (drop the unit axis, merge the two leading axes). -/
theorem entry_rows (c : Dev nD) :
    (V m c main_v1 : S65536x256.Idx → EReal)
      = shapeCast S65536x256 (shapeCast S32x2048x256 (m ((c : Thread nD τ).loc main_arg0))
          shapeCasts_S32x2048x256x1_S32x2048x256) shapeCasts_S32x2048x256_S65536x256 := by
  show StableHlo.after hostOps0 (fun b => m (c, b)) (Proc.devRef .tc main_v1) = _
  after_results <;> rfl

/-- And, as its second, the product of the transposed adjacency matrix with the weight matrix. -/
theorem entry_folded (c : Dev nD) :
    (V m c main_v3 : S256x64.Idx → EReal)
      = Host.dotGeneral (F := Ideal) (φ₁ := .f32) (φ₂ := .f32) dot_S256x256_S256x64_S256x64_1_0_0_1_n_n none
          (transpose (α := Ideal .f32) S256x256 [1, 0] (m ((c : Thread nD τ).loc main_arg1))
            transposes_S256x256_S256x256_1_0)
          (m ((c : Thread nD τ).loc main_arg2)) := by
  show StableHlo.after hostOps0 (fun b => m (c, b)) (Proc.devRef .tc main_v3) = _
  after_results <;> rfl

/-- Row 2048·b + t, column n of the flattened signal is x[b, t, n, 0]. -/
theorem rows_apply (X : FVec Ideal S32x2048x256x1 .f32) (h1 : S32x2048x256x1.ShapeCasts S32x2048x256)
    (h2 : S32x2048x256.ShapeCasts S65536x256) (b : Fin 32) (t : Fin 2048) (n : Fin 256) (r : Fin 65536)
    (hr : r.val = b.val * 2048 + t.val) :
    shapeCast S65536x256 (shapeCast S32x2048x256 X h1) h2 (ix2 r n) = X (ix4 b t n (0 : Fin 1)) :=
  (shapeCast_apply _ h2 (ix2 r n) (ix3 b t n) (by
      rw [Shape.rowMajor_val_three, Shape.rowMajor_val_two]
      show (b.val * 2048 + t.val) * 256 + n.val = r.val * 256 + n.val
      rw [hr])).trans
    (shapeCast_apply X h1 (ix3 b t n) (ix4 b t n (0 : Fin 1)) (by
      rw [Shape.rowMajor_val_four, Shape.rowMajor_val_three]
      show ((b.val * 2048 + t.val) * 256 + n.val) * 1 + 0 = (b.val * 2048 + t.val) * 256 + n.val
      omega))

/-- The folded product's left index at output (n, d) and contraction coordinate c keeps the row … -/
theorem fold_lhs_row (i : S256x64.Idx) (u : dot_S256x256_S256x64_S256x64_1_0_0_1_n_n.contr.Idx) :
    (dot_S256x256_S256x64_S256x64_1_0_0_1_n_n.lhsIdx i u 0).val = (i 0).val := by
  unfold DotDims.lhsIdx
  rw [dif_neg (show ¬(0 : Fin S256x256.rank) ∈ dot_S256x256_S256x64_S256x64_1_0_0_1_n_n.lhsBatch by decide),
    dif_pos (show (0 : Fin S256x256.rank) ∈ dot_S256x256_S256x64_S256x64_1_0_0_1_n_n.lhsNonContracting by decide)]
  rfl
/-- … and takes the contraction coordinate as its column; -/
theorem fold_lhs_col (i : S256x64.Idx) (u : dot_S256x256_S256x64_S256x64_1_0_0_1_n_n.contr.Idx) :
    (dot_S256x256_S256x64_S256x64_1_0_0_1_n_n.lhsIdx i u 1).val = (u ⟨0, by decide⟩).val :=
  dot_S256x256_S256x64_S256x64_1_0_0_1_n_n.lhsIdx_val_of_single rfl i u
/-- the right index takes it as its row … -/
theorem fold_rhs_row (i : S256x64.Idx) (u : dot_S256x256_S256x64_S256x64_1_0_0_1_n_n.contr.Idx) :
    (dot_S256x256_S256x64_S256x64_1_0_0_1_n_n.rhsIdx i u 0).val = (u ⟨0, by decide⟩).val :=
  dot_S256x256_S256x64_S256x64_1_0_0_1_n_n.rhsIdx_val_of_single rfl i u
/-- … and keeps the column. -/
theorem fold_rhs_col (i : S256x64.Idx) (u : dot_S256x256_S256x64_S256x64_1_0_0_1_n_n.contr.Idx) :
    (dot_S256x256_S256x64_S256x64_1_0_0_1_n_n.rhsIdx i u 1).val = (i 1).val := by
  unfold DotDims.rhsIdx
  rw [dif_neg (show ¬(1 : Fin S256x64.rank) ∈ dot_S256x256_S256x64_S256x64_1_0_0_1_n_n.rhsBatch by decide),
    dif_pos (show (1 : Fin S256x64.rank) ∈ dot_S256x256_S256x64_S256x64_1_0_0_1_n_n.rhsNonContracting by decide)]
  rfl

/-- Entry (n, d) of the transposed adjacency matrix times the weight matrix: `∑ c, a (c, n) * w (c, d)`. -/
theorem folded_apply (A : FVec Ideal S256x256 .f32) (W : FVec Ideal S256x64 .f32) (h : S256x256.Transposes [1, 0] S256x256)
    (n : Fin 256) (d : Fin 64) :
    Host.dotGeneral (F := Ideal) dot_S256x256_S256x64_S256x64_1_0_0_1_n_n none (transpose S256x256 [1, 0] A h) W (ix2 n d)
      = ∑ c : Fin 256, A (ix2 c n) * W (ix2 c d) := by
  simp only [Host.dotGeneral]
  rw [Ideal.dotGeneral_apply, ← Equiv.sum_comp (contrEquiv1 dot_S256x256_S256x64_S256x64_1_0_0_1_n_n 256 rfl rfl).symm]
  refine Finset.sum_congr rfl fun c _ => ?_
  have hc := contrEquiv1_symm_val dot_S256x256_S256x64_S256x64_1_0_0_1_n_n 256 rfl rfl c
  have el : dot_S256x256_S256x64_S256x64_1_0_0_1_n_n.lhsIdx (ix2 n d)
      ((contrEquiv1 dot_S256x256_S256x64_S256x64_1_0_0_1_n_n 256 rfl rfl).symm c) = ix2 n c :=
    funext fun a => Fin.ext (by
      match a with
      | ⟨0, _⟩ => exact fold_lhs_row _ _
      | ⟨1, _⟩ => exact (fold_lhs_col _ _).trans hc)
  have er : dot_S256x256_S256x64_S256x64_1_0_0_1_n_n.rhsIdx (ix2 n d)
      ((contrEquiv1 dot_S256x256_S256x64_S256x64_1_0_0_1_n_n 256 rfl rfl).symm c) = ix2 c d :=
    funext fun a => Fin.ext (by
      match a with
      | ⟨0, _⟩ => exact (fold_rhs_row _ _).trans hc
      | ⟨1, _⟩ => exact fold_rhs_col _ _)
  rw [el, er, transpose_ix2_apply]

end Cert.GraphLayer

end
-- ==== Proof.KernelRun.lean ====
/-
  The idealized kernel's run, read: its result array is the layer in the "fold, then contract" order.

  After the region the host only re-lays the 65536 × 64 array as [32, 2048, 64, 1]: entry (b, t, d, 0) is row 2048·b + t,
  column d. That row of the region's result is `max (∑ n, X (2048·b + t, n) * M (n, d)) 0` with X the flattened signal and
  M the folded matrices, which is `foldedAt x a w b t d` of the argument arrays.
-/
import proofs.«112091_j8976481649176_2_alg».proof.Proof.Rows
import proofs.«112091_j8976481649176_2_alg».proof.Proof.Prefix
import proofs.«112091_j8976481649176_2_alg».proof.Proof.Layer

set_option maxRecDepth 16384

noncomputable section

open scoped BigOperators

namespace Cert.GraphLayer

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The result buffer after the host's last line: the region's array, re-laid. -/
theorem tail_eq (c : Dev nD) :
    Pipeline.afterTail₀ cfgs (dats m) 0 (V0 m) [hostOps1] c main_v5
      = shapeCast S32x2048x64x1 (rowsOut (V m c main_v1) (V m c main_v3)) shapeCasts_S65536x64_S32x2048x64x1 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = rowsOut (V m c main_v1) (V m c main_v3) :=
    (Pipeline.withArrays_arr spec0 launch0.win.arr_inj c _ _ 2).trans (region_result m c)
  rw [e]
  rfl

/-- THE KERNEL'S RESULT, entry by entry: `foldedAt` of the three argument arrays. -/
theorem kernel_result (c : Dev nD) :
    Pipeline.afterTail₀ cfgs (dats m) 0 (V0 m) [hostOps1] c main_v5
      = fun i => foldedAt (m ((c : Thread nD τ).loc main_arg0)) (m ((c : Thread nD τ).loc main_arg1))
          (m ((c : Thread nD τ).loc main_arg2)) (i 0) (i 1) (i 2) := by
  rw [tail_eq, entry_rows m c, entry_folded m c]
  funext i
  obtain ⟨b, t, d, z, rfl⟩ : ∃ (b : Fin 32) (t : Fin 2048) (d : Fin 64) (z : Fin 1), i = ix4 b t d z :=
    ⟨i 0, i 1, i 2, i 3, eq_ix4 i⟩
  have hb : b.val < 32 := b.isLt
  have ht : t.val < 2048 := t.isLt
  have hz : z.val = 0 := by omega
  refine (shapeCast_apply _ shapeCasts_S65536x64_S32x2048x64x1 (ix4 b t d z)
    (ix2 (⟨b.val * 2048 + t.val, by omega⟩ : Fin 65536) d) (by
      rw [Shape.rowMajor_val_two, Shape.rowMajor_val_four]
      show (b.val * 2048 + t.val) * 64 + d.val = ((b.val * 2048 + t.val) * 64 + d.val) * 1 + z.val
      omega)).trans ?_
  unfold rowsOut foldedAt
  refine congrArg (max · 0) (Finset.sum_congr rfl fun n _ => ?_)
  show shapeCast S65536x256 _ _ (ix2 (⟨b.val * 2048 + t.val, _⟩ : Fin 65536) n) * Host.dotGeneral (F := Ideal) _ none _ _ (ix2 n d) = _
  rw [rows_apply _ _ _ b t n _ rfl, folded_apply]
  rfl

/-- The idealized kernel's run: it terminates, the result array is the layer in the "fold, then contract" order, the
    arguments are unchanged. -/
theorem kernel_run :
    θ_run defs (onTc (τ := τ) (main (F := Ideal))) ⟨m, fun _ => 0, ρ⟩ fun r => ∀ c : Dev nD,
      r.2.mem ((c.tc : Thread nD τ).loc main_v5)
        = (fun i => foldedAt (m ((c : Thread nD τ).loc main_arg0)) (m ((c : Thread nD τ).loc main_arg1))
            (m ((c : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.GraphLayer

end
-- ==== Proof.lean ====
/-
  A graph-convolution layer, kernel against reference, on the extended reals.

  Arguments: a signal x[b, t, n, 0] (32 × 2048 × 256 × 1), an adjacency matrix a[c, n] (256 × 256), weights w[c, d] (256 × 64).
  The reference aggregates and then transforms:   out[b, t, d, 0] = max (∑ c, (∑ n, x[b,t,n,0] · a[c,n]) · w[c,d]) 0.
  The kernel folds the two matrices on the host, M[n, d] = ∑ c, a[c,n] · w[c,d], flattens the signal to 65536 rows, and in
  eight blocks of 8192 rows computes max (X · M) 0; the host re-lays the result:   max (∑ n, x[b,t,n,0] · M[n,d]) 0.
  The two agree by distributivity and the exchange of the two finite sums — laws that fail on the extended reals at
  infinities of opposite sign, and that hold here because the precondition makes every entry a real number.
  Changes of float format are the identity at the ideal values, so the kernel's narrowing of both operands plays no role.

  The three frames: the kernel's two are the generated frame certificates; the reference's is its run with the result
  dropped. The idealization rewrote nothing, so "preserves" is trivial. "algebraic": both runs end at `layer x a w`.
-/
import proofs.«112091_j8976481649176_2_alg».proof.Defs
import proofs.«112091_j8976481649176_2_alg».proof.Proof.Gen.Kernel
import proofs.«112091_j8976481649176_2_alg».proof.Proof.Gen.Kernel.Skeleton
import proofs.«112091_j8976481649176_2_alg».proof.Proof.Gen.Kernel.Launch
import proofs.«112091_j8976481649176_2_alg».proof.Proof.Gen.Kernel.Points
import proofs.«112091_j8976481649176_2_alg».proof.Proof.Gen.Kernel.Frame
import proofs.«112091_j8976481649176_2_alg».proof.Proof.Gen.KernelIdeal
import proofs.«112091_j8976481649176_2_alg».proof.Proof.Gen.KernelIdeal.Skeleton
import proofs.«112091_j8976481649176_2_alg».proof.Proof.Gen.KernelIdeal.Launch
import proofs.«112091_j8976481649176_2_alg».proof.Proof.Gen.KernelIdeal.Points
import proofs.«112091_j8976481649176_2_alg».proof.Proof.Gen.KernelIdeal.Frame
import proofs.«112091_j8976481649176_2_alg».proof.Proof.Gen.ReferenceIdeal
import proofs.«112091_j8976481649176_2_alg».proof.Proof.Gen.ReferenceIdeal.Run
import proofs.«112091_j8976481649176_2_alg».proof.Proof.Gen.ReferenceIdeal.Read
import proofs.«112091_j8976481649176_2_alg».proof.Proof.Gen.Pre_finite_inputs
import proofs.«112091_j8976481649176_2_alg».proof.Proof.Finite
import proofs.«112091_j8976481649176_2_alg».proof.Proof.Reference
import proofs.«112091_j8976481649176_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both idealized programs end with the result array at the layer of the argument arrays: the kernel at the
    "fold, then contract" order, which is the layer because every entry is real; the reference at the layer itself. -/
theorem algebraic : Cert.algebraic_KernelIdeal_ReferenceIdeal := by
  intro m ρ m' ρ' hpre hagree
  refine ⟨fun c => Cert.GraphLayer.layer (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.GraphLayer.kernel_run m ρ)
    obtain ⟨hx, ha, hw⟩ := Cert.GraphLayer.real_entries _ _ _ (hpre c)
    funext i
    exact Cert.GraphLayer.foldedAt_eq_layerAt _ _ _ hx ha hw (i 0) (i 1) (i 2)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v4_eq, Cert.GraphLayer.ref_eq_layer, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
